-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x8x8 : Shape := ⟨4, ![2048, 128, 8, 8]⟩
abbrev S14 : Shape := ⟨1, ![14]⟩
abbrev S_ : Shape := ⟨0, ![]⟩

class Facts : Prop where
  bcast_S_S2048x128x8x8 : S_.BroadcastsInDim S2048x128x8x8 (![] : Fin 0 → Fin S2048x128x8x8.rank)
  reducesTo_S2048x128x8x8_S_d0_1_2_3 : S2048x128x8x8.ReducesTo [0, 1, 2, 3] S_
  h_S_ : 0 < S_.numel
  bcast_S_S14 : S_.BroadcastsInDim S14 (![] : Fin 0 → Fin S14.rank)
  reducesTo_S14_S_d0 : S14.ReducesTo [0] S_

variable [Facts]

def fn {F : FTy → Type} [FloatOps F] (main_arg0 : FVec F S2048x128x8x8 .f32) (main_arg1 : FVec F S14 .f32) : IVec S_ 1 :=
  let main_v0 : FVec F S2048x128x8x8 .f32 := Host.absf main_arg0
  let main_cst : FVec F S_ .f32 := constant S_ .f32 0x7F800000#32
  let main_v1 : FVec F S2048x128x8x8 .f32 := broadcastInDim S2048x128x8x8 ![] bcast_S_S2048x128x8x8 main_cst
  let main_v2 : IVec S2048x128x8x8 1 := cmpf .olt main_v0 main_v1
  let main_c : IVec S_ 1 := constantI S_ 1 1#1
  let main_v3 : IVec S_ 1 := (fun x v => Host.reduce IntOp.andi x v reducesTo_S2048x128x8x8_S_d0_1_2_3 h_S_) main_v2 main_c
  let main_v4 : FVec F S14 .f32 := Host.absf main_arg1
  let main_cst_0 : FVec F S_ .f32 := constant S_ .f32 0x7F800000#32
  let main_v5 : FVec F S14 .f32 := broadcastInDim S14 ![] bcast_S_S14 main_cst_0
  let main_v6 : IVec S14 1 := cmpf .olt main_v4 main_v5
  let main_c_1 : IVec S_ 1 := constantI S_ 1 1#1
  let main_v7 : IVec S_ 1 := (fun x v => Host.reduce IntOp.andi x v reducesTo_S14_S_d0 h_S_) main_v6 main_c_1
  let main_v8 : IVec S_ 1 := andi main_v3 main_v7
  main_v8
-- ==== Kernel.lean ====
abbrev S2048x128x8x8 : Shape := ⟨4, ![2048, 128, 8, 8]⟩
abbrev S14 : Shape := ⟨1, ![14]⟩
abbrev S262144x8x8 : Shape := ⟨3, ![262144, 8, 8]⟩
abbrev S512x8x8 : Shape := ⟨3, ![512, 8, 8]⟩
abbrev S8x8 : Shape := ⟨2, ![8, 8]⟩
abbrev S1x8x8 : Shape := ⟨3, ![1, 8, 8]⟩
abbrev S1 : Shape := ⟨1, ![1]⟩

abbrev nBuf : Space → Nat
  | .hbm => 5
  | .vmem => 5
  | .smem => 0
  | _ => 0

abbrev bufTy : (tb : Table) → Fin (tcTables nBuf tb) → BufTy
  | .hbm, ⟨0, _⟩ => ⟨S2048x128x8x8, .f32⟩
  | .hbm, ⟨1, _⟩ => ⟨S14, .f32⟩
  | .hbm, ⟨2, _⟩ => ⟨S262144x8x8, .f32⟩
  | .hbm, ⟨3, _⟩ => ⟨S262144x8x8, .f32⟩
  | .hbm, ⟨4, _⟩ => ⟨S2048x128x8x8, .f32⟩
  | .local _ .vmem, ⟨0, _⟩ => ⟨S14, .f32⟩
  | .local _ .vmem, ⟨1, _⟩ => ⟨S512x8x8, .f32⟩
  | .local _ .vmem, ⟨2, _⟩ => ⟨S512x8x8, .f32⟩
  | .local _ .vmem, ⟨3, _⟩ => ⟨S512x8x8, .f32⟩
  | .local _ .vmem, ⟨4, _⟩ => ⟨S512x8x8, .f32⟩
  | _, _ => ⟨S2048x128x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S14 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048x128x8x8_S262144x8x8 : S2048x128x8x8.ShapeCasts S262144x8x8
  inb_S512x8x8_S512x8x8_0_0_0 : ∀ a, (![0, 0, 0] : Fin 3 → Nat) a + S512x8x8.size a ≤ S512x8x8.size a
  h_S512x8x8 : 0 < S512x8x8.numel
  shapeCasts_S512x8x8_S512x8x8 : S512x8x8.ShapeCasts S512x8x8
  bitsLt_bf16_f32 : FTy.bits .bf16 < FTy.bits .f32
  transposes_S512x8x8_p0_2_1_S512x8x8 : S512x8x8.Transposes [0, 2, 1] S512x8x8
  iota_S8x8_d0_w32 : S8x8.Iotas .tc 32 [0]
  iota_S8x8_d1_w32 : S8x8.Iotas .tc 32 [1]
  natLt_1_32 : 1 < 32
  shapeCasts_S8x8_S1x8x8 : S8x8.ShapeCasts S1x8x8
  broadcasts_S1x8x8_S512x8x8 : S1x8x8.Broadcasts S512x8x8
  inb_S14_S14_0 : ∀ a, (![0] : Fin 1 → Nat) a + S14.size a ≤ S14.size a
  h_S14 : 0 < S14.numel
  slices_S14_o0_S1 : S14.Slices ![0] S1
  inpos_S1_p0 : ∀ a, (![0] : Fin 1 → Nat) a < S1.size a
  slices_S14_o1_S1 : S14.Slices ![1] S1
  slices_S14_o2_S1 : S14.Slices ![2] S1
  slices_S14_o3_S1 : S14.Slices ![3] S1
  slices_S14_o4_S1 : S14.Slices ![4] S1
  slices_S14_o5_S1 : S14.Slices ![5] S1
  slices_S14_o6_S1 : S14.Slices ![6] S1
  slices_S14_o7_S1 : S14.Slices ![7] S1
  shapeCasts_S262144x8x8_S2048x128x8x8 : S262144x8x8.ShapeCasts S2048x128x8x8
  dot_S512x8x8_S512x8x8_S512x8x8_2_1_1_2_0_0_wf : DotDims.WF S512x8x8 S512x8x8 S512x8x8 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S14.size a ≤ S14.size a
  hwx0_0 : ∀ i : grid0.Coords, EltTy.bits .f32 = 32 ∨ (Rect.block (s := S14) S14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x8.size a ≤ S262144x8x8.size a
  hwx0_1 : ∀ i : grid0.Coords, EltTy.bits .f32 = 32 ∨ (Rect.block (s := S262144x8x8) S512x8x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x8.size a ≤ S262144x8x8.size a
  hwx0_2 : ∀ i : grid0.Coords, EltTy.bits .f32 = 32 ∨ (Rect.block (s := S262144x8x8) S512x8x8.size (cc0_transform_2 i) (hinb0_2 i)).WholeWords (EltTy.packing .f32)

variable [Facts₀]

def dot_S512x8x8_S512x8x8_S512x8x8_2_1_1_2_0_0 : DotDims S512x8x8 S512x8x8 S512x8x8 where
  lhsContracting := [2]
  rhsContracting := [1]
  lhsNonContracting := [1]
  rhsNonContracting := [2]
  lhsBatch := [0]
  rhsBatch := [0]
  wf := dot_S512x8x8_S512x8x8_S512x8x8_2_1_1_2_0_0_wf

abbrev win0_0 : Pipeline.Window sig grid0 :=
  Pipeline.Window.ofSpec (Memref.whole main_arg1) S14.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x8x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x8x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x128x8x8 : Shape := ⟨4, ![2048, 128, 8, 8]⟩
abbrev S14 : Shape := ⟨1, ![14]⟩
abbrev S8x8 : Shape := ⟨2, ![8, 8]⟩
abbrev S_ : Shape := ⟨0, ![]⟩
abbrev S1x1x8x8 : Shape := ⟨4, ![1, 1, 8, 8]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S2048x128x8x8, .f32⟩
  | .hbm, ⟨1, _⟩ => ⟨S14, .f32⟩
  | .hbm, ⟨2, _⟩ => ⟨S8x8, .i32⟩
  | .hbm, ⟨3, _⟩ => ⟨S8x8, .i32⟩
  | .hbm, ⟨4, _⟩ => ⟨S_, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8, .f32⟩
  | .hbm, ⟨9, _⟩ => ⟨S2048x128x8x8, .f32⟩
  | .hbm, ⟨10, _⟩ => ⟨S2048x128x8x8, .f32⟩
  | .hbm, ⟨11, _⟩ => ⟨S1x1x8x8, .f32⟩
  | .hbm, ⟨12, _⟩ => ⟨S2048x128x8x8, .f32⟩
  | .hbm, ⟨13, _⟩ => ⟨S2048x128x8x8, .f32⟩
  | .hbm, ⟨14, _⟩ => ⟨S2048x128x8x8, .f32⟩
  | .hbm, ⟨15, _⟩ => ⟨S2048x128x8x8, .f32⟩
  | .hbm, ⟨16, _⟩ => ⟨S2048x128x8x8, .f32⟩
  | .hbm, ⟨17, _⟩ => ⟨S2048x128x8x8, .f32⟩
  | .hbm, ⟨18, _⟩ => ⟨S2048x128x8x8, .f32⟩
  | .hbm, ⟨19, _⟩ => ⟨S2048x128x8x8, .f32⟩
  | .hbm, ⟨20, _⟩ => ⟨S1, .f32⟩
  | .hbm, ⟨21, _⟩ => ⟨S_, .f32⟩
  | .hbm, ⟨22, _⟩ => ⟨S2048x128x8x8, .f32⟩
  | .hbm, ⟨23, _⟩ => ⟨S2048x128x8x8, .f32⟩
  | .hbm, ⟨24, _⟩ => ⟨S1, .f32⟩
  | .hbm, ⟨25, _⟩ => ⟨S_, .f32⟩
  | .hbm, ⟨26, _⟩ => ⟨S2048x128x8x8, .f32⟩
  | .hbm, ⟨27, _⟩ => ⟨S2048x128x8x8, .f32⟩
  | .hbm, ⟨28, _⟩ => ⟨S2048x128x8x8, .f32⟩
  | .hbm, ⟨29, _⟩ => ⟨S1, .f32⟩
  | .hbm, ⟨30, _⟩ => ⟨S_, .f32⟩
  | .hbm, ⟨31, _⟩ => ⟨S2048x128x8x8, .f32⟩
  | .hbm, ⟨32, _⟩ => ⟨S2048x128x8x8, .f32⟩
  | .hbm, ⟨33, _⟩ => ⟨S2048x128x8x8, .f32⟩
  | .hbm, ⟨34, _⟩ => ⟨S1, .f32⟩
  | .hbm, ⟨35, _⟩ => ⟨S_, .f32⟩
  | .hbm, ⟨36, _⟩ => ⟨S2048x128x8x8, .f32⟩
  | .hbm, ⟨37, _⟩ => ⟨S2048x128x8x8, .f32⟩
  | .hbm, ⟨38, _⟩ => ⟨S2048x128x8x8, .f32⟩
  | .hbm, ⟨39, _⟩ => ⟨S1, .f32⟩
  | .hbm, ⟨40, _⟩ => ⟨S_, .f32⟩
  | .hbm, ⟨41, _⟩ => ⟨S2048x128x8x8, .f32⟩
  | .hbm, ⟨42, _⟩ => ⟨S2048x128x8x8, .f32⟩
  | .hbm, ⟨43, _⟩ => ⟨S2048x128x8x8, .f32⟩
  | .hbm, ⟨44, _⟩ => ⟨S1, .f32⟩
  | .hbm, ⟨45, _⟩ => ⟨S_, .f32⟩
  | .hbm, ⟨46, _⟩ => ⟨S2048x128x8x8, .f32⟩
  | .hbm, ⟨47, _⟩ => ⟨S2048x128x8x8, .f32⟩
  | .hbm, ⟨48, _⟩ => ⟨S2048x128x8x8, .f32⟩
  | .hbm, ⟨49, _⟩ => ⟨S1, .f32⟩
  | .hbm, ⟨50, _⟩ => ⟨S_, .f32⟩
  | .hbm, ⟨51, _⟩ => ⟨S2048x128x8x8, .f32⟩
  | .hbm, ⟨52, _⟩ => ⟨S2048x128x8x8, .f32⟩
  | .hbm, ⟨53, _⟩ => ⟨S2048x128x8x8, .f32⟩
  | .hbm, ⟨54, _⟩ => ⟨S1, .f32⟩
  | .hbm, ⟨55, _⟩ => ⟨S_, .f32⟩
  | .hbm, ⟨56, _⟩ => ⟨S8x8, .f32⟩
  | .hbm, ⟨57, _⟩ => ⟨S8x8, .f32⟩
  | .hbm, ⟨58, _⟩ => ⟨S1x1x8x8, .f32⟩
  | .hbm, ⟨59, _⟩ => ⟨S2048x128x8x8, .f32⟩
  | .hbm, ⟨60, _⟩ => ⟨S2048x128x8x8, .f32⟩
  | .hbm, ⟨61, _⟩ => ⟨S2048x128x8x8, .f32⟩
  | .hbm, ⟨62, _⟩ => ⟨S2048x128x8x8, .f32⟩
  | _, _ => ⟨S2048x128x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩

abbrev nD : Nat := 1
abbrev τ : Topo := Topo.v7x

variable {F : FTy → Type} [FloatOps F]

class Facts₀ : Prop where
  bcast_S_S8x8 : S_.BroadcastsInDim S8x8 (![] : Fin 0 → Fin S8x8.rank)
  transposes_S2048x128x8x8_S2048x128x8x8_0_1_3_2 : S2048x128x8x8.Transposes [0, 1, 3, 2] S2048x128x8x8
  bcast_S8x8_S1x1x8x8_2_3 : S8x8.BroadcastsInDim S1x1x8x8 (![2, 3] : Fin 2 → Fin S1x1x8x8.rank)
  bcast_S1x1x8x8_S2048x128x8x8_0_1_2_3 : S1x1x8x8.BroadcastsInDim S2048x128x8x8 (![0, 1, 2, 3] : Fin 4 → Fin S2048x128x8x8.rank)
  slices_S14_S1_0 : S14.Slices ![0] S1
  shapeCasts_S1_S_ : S1.ShapeCasts S_
  bcast_S_S2048x128x8x8 : S_.BroadcastsInDim S2048x128x8x8 (![] : Fin 0 → Fin S2048x128x8x8.rank)
  slices_S14_S1_1 : S14.Slices ![1] S1
  slices_S14_S1_2 : S14.Slices ![2] S1
  slices_S14_S1_3 : S14.Slices ![3] S1
  slices_S14_S1_4 : S14.Slices ![4] S1
  slices_S14_S1_5 : S14.Slices ![5] S1
  slices_S14_S1_6 : S14.Slices ![6] S1
  slices_S14_S1_7 : S14.Slices ![7] S1
  dot_S2048x128x8x8_S2048x128x8x8_S2048x128x8x8_3_2_2_3_01_01_wf : DotDims.WF S2048x128x8x8 S2048x128x8x8 S2048x128x8x8 [3] [2] [2] [3] [0, 1] [0, 1]

variable [Facts₀]

def dot_S2048x128x8x8_S2048x128x8x8_S2048x128x8x8_3_2_2_3_01_01 : DotDims S2048x128x8x8 S2048x128x8x8 S2048x128x8x8 where
  lhsContracting := [3]
  rhsContracting := [2]
  lhsNonContracting := [2]
  rhsNonContracting := [3]
  lhsBatch := [0, 1]
  rhsBatch := [0, 1]
  wf := dot_S2048x128x8x8_S2048x128x8x8_S2048x128x8x8_3_2_2_3_01_01_wf

class Facts : Prop extends Facts₀ where

variable [Facts]
-- ==== Proof.Spec.lean ====
/-
  The function both programs compute, on ONE 8×8 matrix at a time, over the extended reals.

  For an 8×8 block `x` and weights `w`:
    A   = I − x·xᵀ
    Mat = w₀·A + w₁·A² + w₂·A³ + w₃·A⁴ + w₄·A⁵ + w₅·A⁶ + w₆·A⁷ + w₇·I
    out = x + Mat·x
  where the powers are taken as left-nested products (Aᵏ⁺¹ = Aᵏ·A) and the weighted sum is
  left-nested too, exactly as both programs write them; so no associativity, distributivity or
  finiteness is ever used: the two programs are the same expression tree, laid out differently.
-/
import Idealize.ShloMosaic.PureOps.Ideal
import Idealize.ShloMosaic.Lib.ValueIdx

noncomputable section

namespace Cert.MatPoly

/-- An 8×8 matrix of extended reals, by row and column. -/
abbrev Mat8 : Type := Fin 8 → Fin 8 → EReal

/-- The product of two 8×8 matrices: entry (p, q) is the sum over j of P[p, j] · Q[j, q]. -/
def mm (P Q : Mat8) : Mat8 := fun p q => ∑ j : Fin 8, P p j * Q j q

/-- The identity matrix as numbers: one on the diagonal, zero off it. -/
def eye : Mat8 := fun p q => if p = q then 1 else 0

/-- The Gram matrix x·xᵀ: entry (p, q) is the sum over j of x[p, j] · x[q, j]. -/
def gram (x : Mat8) : Mat8 := fun p q => ∑ j : Fin 8, x p j * x q j

/-- A = I − x·xᵀ. -/
def resid (x : Mat8) : Mat8 := fun p q => eye p q - gram x p q

/-- The left-nested powers A², …, A⁷. -/
def pow2 (A : Mat8) : Mat8 := mm A A
def pow3 (A : Mat8) : Mat8 := mm (pow2 A) A
def pow4 (A : Mat8) : Mat8 := mm (pow3 A) A
def pow5 (A : Mat8) : Mat8 := mm (pow4 A) A
def pow6 (A : Mat8) : Mat8 := mm (pow5 A) A
def pow7 (A : Mat8) : Mat8 := mm (pow6 A) A

/-- The weighted combination Mat = w₀·A + w₁·A² + … + w₆·A⁷ + w₇·I, summed from the left. -/
def comb (w : Fin 14 → EReal) (A : Mat8) : Mat8 := fun p q =>
  w 0 * A p q + w 1 * pow2 A p q + w 2 * pow3 A p q + w 3 * pow4 A p q + w 4 * pow5 A p q
    + w 5 * pow6 A p q + w 6 * pow7 A p q + w 7 * eye p q

/-- The layer on one block: x + Mat(I − x·xᵀ)·x. -/
def layer (w : Fin 14 → EReal) (x : Mat8) : Mat8 := fun p q => x p q + mm (comb w (resid x)) x p q

/-! ## The layer on whole arrays

  The same function applied to every matrix of an array of matrices: over the flat [262144, 8, 8] array the kernel's
  pipeline works on (matrix N), and over the [2048, 128, 8, 8] array both programs take and return (matrix (a, b)).
  Row-major order makes matrix (a, b) of the rank-4 array matrix 128·a + b of the flat one. -/

open Idealize.ShloMosaic Idealize.ShloMosaic.ValueIdx

/-- The layer over a [262144, 8, 8] array of matrices: entry (N, p, q) of the result is entry (p, q) of the layer of matrix N. -/
def layer3 (Y : (⟨3, ![262144, 8, 8]⟩ : Shape).Idx → EReal) (w : (⟨1, ![14]⟩ : Shape).Idx → EReal) :
    (⟨3, ![262144, 8, 8]⟩ : Shape).Idx → EReal :=
  fun i => layer (fun k => w (ix1 k)) (fun r s => Y (ix3 (i 0) r s)) (i 1) (i 2)

/-- The layer over a [2048, 128, 8, 8] array of matrices: entry (a, b, p, q) of the result is entry (p, q) of the layer of
    matrix (a, b). -/
def layer4 (X : (⟨4, ![2048, 128, 8, 8]⟩ : Shape).Idx → EReal) (w : (⟨1, ![14]⟩ : Shape).Idx → EReal) :
    (⟨4, ![2048, 128, 8, 8]⟩ : Shape).Idx → EReal :=
  fun i => layer (fun k => w (ix1 k)) (fun r s => X (ix4 (i 0) (i 1) r s)) (i 2) (i 3)

theorem layer3_apply (Y : (⟨3, ![262144, 8, 8]⟩ : Shape).Idx → EReal) (w : (⟨1, ![14]⟩ : Shape).Idx → EReal)
    (N : Fin 262144) (p q : Fin 8) :
    layer3 Y w (ix3 N p q) = layer (fun k => w (ix1 k)) (fun r s => Y (ix3 N r s)) p q := rfl

theorem layer4_apply (X : (⟨4, ![2048, 128, 8, 8]⟩ : Shape).Idx → EReal) (w : (⟨1, ![14]⟩ : Shape).Idx → EReal)
    (a : Fin 2048) (b : Fin 128) (p q : Fin 8) :
    layer4 X w (ix4 a b p q) = layer (fun k => w (ix1 k)) (fun r s => X (ix4 a b r s)) p q := rfl

end Cert.MatPoly

end
-- ==== Proof.KernelBlock.lean ====
/-
  The kernel body's stored value, read one 8×8 block at a time.

  The body holds a [512, 8, 8] tile: 512 independent 8×8 matrices. Every operation of the body acts on
  each of the 512 matrices separately — the batched matrix product contracts within a matrix, the
  transpose swaps the two matrix axes, the identity is broadcast along the batch axis, and the rest is
  pointwise — so matrix `n` of the stored tile is the layer function (`Cert.MatPoly.layer`) of matrix
  `n` of the loaded tile and of the weights. The changes of float format on the way into each product
  are the identity on extended reals.
-/
import proofs.«178857_j69380901700219_1_alg».proof.Proof.Gen.KernelIdeal.Skeleton
import proofs.«178857_j69380901700219_1_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.MatPoly

/-- Matrix `n` of a [512, 8, 8] tile. -/
def sl {φ : FTy} (v : FVec Ideal S512x8x8 φ) (n : Fin 512) : Mat8 := fun r s => v (ix3 n r s)

/-- The batched product's dimension record: batch axis 0, the left operand's columns against the right operand's rows. -/
abbrev D3 : DotDims S512x8x8 S512x8x8 S512x8x8 := dot_S512x8x8_S512x8x8_S512x8x8_2_1_1_2_0_0

/-! ## The operand indices of the batched product, coordinate by coordinate -/

theorem lhs_0 (i : S512x8x8.Idx) (q : D3.contr.Idx) : (D3.lhsIdx i q 0).val = (i 0).val := by
  unfold DotDims.lhsIdx
  rw [dif_pos (show (0 : Fin S512x8x8.rank) ∈ D3.lhsBatch by decide)]
  rfl
theorem lhs_1 (i : S512x8x8.Idx) (q : D3.contr.Idx) : (D3.lhsIdx i q 1).val = (i 1).val := by
  unfold DotDims.lhsIdx
  rw [dif_neg (show ¬(1 : Fin S512x8x8.rank) ∈ D3.lhsBatch by decide), dif_pos (show (1 : Fin S512x8x8.rank) ∈ D3.lhsNonContracting by decide)]
  rfl
theorem lhs_2 (i : S512x8x8.Idx) (q : D3.contr.Idx) : (D3.lhsIdx i q 2).val = (q ⟨0, by decide⟩).val :=
  D3.lhsIdx_val_of_single rfl i q
theorem rhs_0 (i : S512x8x8.Idx) (q : D3.contr.Idx) : (D3.rhsIdx i q 0).val = (i 0).val := by
  unfold DotDims.rhsIdx
  rw [dif_pos (show (0 : Fin S512x8x8.rank) ∈ D3.rhsBatch by decide)]
  rfl
theorem rhs_1 (i : S512x8x8.Idx) (q : D3.contr.Idx) : (D3.rhsIdx i q 1).val = (q ⟨0, by decide⟩).val :=
  D3.rhsIdx_val_of_single rfl i q
theorem rhs_2 (i : S512x8x8.Idx) (q : D3.contr.Idx) : (D3.rhsIdx i q 2).val = (i 2).val := by
  unfold DotDims.rhsIdx
  rw [dif_neg (show ¬(2 : Fin S512x8x8.rank) ∈ D3.rhsBatch by decide), dif_pos (show (2 : Fin S512x8x8.rank) ∈ D3.rhsNonContracting by decide)]
  rfl

/-- The batched product into the zero accumulator, at (n, p, q), is the sum over j of P[n, p, j] · Q[n, j, q]:
    matrix `n` of the product is the product of the matrices `n`. -/
theorem sl_matmul {φ₁ φ₂ : FTy} (P : FVec Ideal S512x8x8 φ₁) (Q : FVec Ideal S512x8x8 φ₂) (n : Fin 512) :
    sl (matmul D3 none P Q (constant S512x8x8 .f32 0x00000000#32)) n = mm (sl P n) (sl Q n) := by
  funext p q
  show matmul D3 none P Q (constant S512x8x8 .f32 0x00000000#32) (ix3 n p q) = ∑ j : Fin 8, P (ix3 n p j) * Q (ix3 n j q)
  simp only [matmul]
  rw [Ideal.matmul_constant_zero_apply, ← Equiv.sum_comp (contrEquiv1 D3 8 rfl rfl).symm]
  refine Finset.sum_congr rfl fun k _ => ?_
  have hk := contrEquiv1_symm_val D3 8 rfl rfl k
  have el : D3.lhsIdx (ix3 n p q) ((contrEquiv1 D3 8 rfl rfl).symm k) = ix3 n p k := funext fun a => Fin.ext (by
    match a with
    | ⟨0, _⟩ => exact lhs_0 _ _
    | ⟨1, _⟩ => exact lhs_1 _ _
    | ⟨2, _⟩ => exact (lhs_2 _ _).trans hk)
  have er : D3.rhsIdx (ix3 n p q) ((contrEquiv1 D3 8 rfl rfl).symm k) = ix3 n k q := funext fun a => Fin.ext (by
    match a with
    | ⟨0, _⟩ => exact rhs_0 _ _
    | ⟨1, _⟩ => exact (rhs_1 _ _).trans hk
    | ⟨2, _⟩ => exact rhs_2 _ _)
  rw [el, er]

/-- Swapping the two matrix axes of the tile transposes each matrix. -/
theorem sl_transpose {φ : FTy} (v : FVec Ideal S512x8x8 φ) (h : S512x8x8.Transposes [0, 2, 1] S512x8x8) (n : Fin 512) :
    sl (transpose S512x8x8 [0, 2, 1] v h) n = fun r s => sl v n s r := by
  funext r s
  exact transpose_apply [0, 2, 1] v h (ix3 n r s) (ix3 n s r) (fun b => match b with
    | ⟨0, _⟩ => rfl
    | ⟨1, _⟩ => rfl
    | ⟨2, _⟩ => rfl)

/-! ## The identity matrix, as the body builds it -/

/-- Comparing the row number with the column number, widening the bit and reading it as a signed integer
    gives one on the diagonal and zero off it. -/
theorem eye_entry : ∀ p q : Fin 8,
    ((IntOp.cmpi .eq (BitVec.ofNat 32 p.val) (BitVec.ofNat 32 q.val)).setWidth 32).toInt = if p = q then 1 else 0 := by
  decide

/-- The tile the body broadcasts the identity into holds the identity in every matrix. -/
theorem sl_eye (n : Fin 512) : sl (k0_pay3 (F := Ideal)) n = eye := by
  funext p q
  show k0_pay3 (F := Ideal) (ix3 n p q) = eye p q
  unfold k0_pay3
  refine (broadcastTo_apply _ broadcasts_S1x8x8_S512x8x8 (ix3 n p q) (ix3 (0 : Fin 1) p q) (fun a => match a with
    | ⟨0, _⟩ => rfl
    | ⟨1, _⟩ => rfl
    | ⟨2, _⟩ => rfl)).trans ?_
  refine (shapeCast_apply _ shapeCasts_S8x8_S1x8x8 (ix3 (0 : Fin 1) p q) (ix2 p q) ?_).trans ?_
  · rw [Shape.rowMajor_val_two, Shape.rowMajor_val_three]
    show p.val * 8 + q.val = (0 * 8 + p.val) * 8 + q.val
    omega
  · show FloatOps.sitofp (F := Ideal) .f32 ((IntOp.cmpi .eq (iota .tc S8x8 32 [0] iota_S8x8_d0_w32 (ix2 p q)) (iota .tc S8x8 32 [1] iota_S8x8_d1_w32 (ix2 p q))).setWidth 32) = eye p q
    rw [iota_single_apply, iota_single_apply]
    show (((((IntOp.cmpi .eq (BitVec.ofNat 32 p.val) (BitVec.ofNat 32 q.val)).setWidth 32).toInt : ℝ)) : EReal) = eye p q
    rw [eye_entry p q]
    unfold eye
    by_cases h : p = q
    · rw [if_pos h, if_pos h]; norm_num
    · rw [if_neg h, if_neg h]; norm_num

/-! ## The weights, as the body extracts them -/

/-- Slicing one element out of the weight vector at offset `k` and extracting it reads entry `k`. -/
theorem weight_entry (x0 : Vec Ideal S14 .f32) (k : Fin 14) (hs : S14.Slices ![k.val] S1) (hp : ∀ a, (![0] : Fin 1 → Nat) a < S1.size a) :
    extractAt ![0] (extractStridedSlice S1 ![k.val] x0 hs) hp = x0 (ix1 k) := by
  unfold extractAt extractStridedSlice
  exact congrArg x0 (funext fun a => Fin.ext (by match a with | ⟨0, _⟩ => rfl))

/-! ## Pointwise operations act matrix by matrix -/

theorem sl_subf (a b : FVec Ideal S512x8x8 .f32) (n : Fin 512) : sl (subf a b) n = fun p q => sl a n p q - sl b n p q := rfl
theorem sl_addf (a b : FVec Ideal S512x8x8 .f32) (n : Fin 512) : sl (addf a b) n = fun p q => sl a n p q + sl b n p q := rfl
theorem sl_scale (a : Ideal .f32) (b : FVec Ideal S512x8x8 .f32) (n : Fin 512) :
    sl (mulf (broadcast S512x8x8 a) b) n = fun p q => a * sl b n p q := rfl
theorem sl_truncf (a : FVec Ideal S512x8x8 .f32) (h : FTy.bits .bf16 < FTy.bits .f32) (n : Fin 512) :
    sl (truncf .bf16 a h) n = sl a n := rfl

/-- The loaded tile recast to its own shape is itself. -/
theorem pay2_eq (v0 : Vec Ideal S512x8x8 .f32) : k0_pay2 v0 = v0 := by
  unfold k0_pay2
  exact shapeCast_self v0 _

/-! ## The body's intermediate values, matrix by matrix -/

/-- A = I − x·xᵀ. -/
theorem sl_pay4 (v0 : Vec Ideal S512x8x8 .f32) (n : Fin 512) : sl (k0_pay4 v0) n = resid (sl (φ := .f32) v0 n) := by
  have e : k0_pay4 v0 = subf (k0_pay3 (F := Ideal)) (matmul D3 none (truncf .bf16 (k0_pay2 v0) bitsLt_bf16_f32)
      (transpose S512x8x8 [0, 2, 1] (truncf .bf16 (k0_pay2 v0) bitsLt_bf16_f32) transposes_S512x8x8_p0_2_1_S512x8x8)
      (constant S512x8x8 .f32 0x00000000#32)) := rfl
  rw [e, sl_subf, sl_eye, sl_matmul, sl_transpose, sl_truncf, pay2_eq]
  rfl

/-- A². -/
theorem sl_pay9 (v0 : Vec Ideal S512x8x8 .f32) (n : Fin 512) : sl (k0_pay9 v0) n = pow2 (resid (sl (φ := .f32) v0 n)) := by
  have e : k0_pay9 v0 = matmul D3 none (truncf .bf16 (k0_pay4 v0) bitsLt_bf16_f32) (truncf .bf16 (k0_pay4 v0) bitsLt_bf16_f32)
      (constant S512x8x8 .f32 0x00000000#32) := rfl
  rw [e, sl_matmul, sl_truncf, sl_pay4]
  rfl

/-- A³. -/
theorem sl_pay10 (v0 : Vec Ideal S512x8x8 .f32) (n : Fin 512) : sl (k0_pay10 v0) n = pow3 (resid (sl (φ := .f32) v0 n)) := by
  have e : k0_pay10 v0 = matmul D3 none (truncf .bf16 (k0_pay9 v0) bitsLt_bf16_f32) (truncf .bf16 (k0_pay4 v0) bitsLt_bf16_f32)
      (constant S512x8x8 .f32 0x00000000#32) := rfl
  rw [e, sl_matmul, sl_truncf, sl_truncf, sl_pay9, sl_pay4]
  rfl

/-- A⁴. -/
theorem sl_pay11 (v0 : Vec Ideal S512x8x8 .f32) (n : Fin 512) : sl (k0_pay11 v0) n = pow4 (resid (sl (φ := .f32) v0 n)) := by
  have e : k0_pay11 v0 = matmul D3 none (truncf .bf16 (k0_pay10 v0) bitsLt_bf16_f32) (truncf .bf16 (k0_pay4 v0) bitsLt_bf16_f32)
      (constant S512x8x8 .f32 0x00000000#32) := rfl
  rw [e, sl_matmul, sl_truncf, sl_truncf, sl_pay10, sl_pay4]
  rfl

/-- The weight vector as a function of its position. -/
def wv (x0 : Vec Ideal S14 .f32) : Fin 14 → EReal := fun k => x0 (ix1 k)

/-- A product of two f32 tiles as the body takes it: both operands changed to bf16 (the identity on extended reals),
    multiplied matrix by matrix into the zero accumulator. -/
def bmm (P Q : FVec Ideal S512x8x8 .f32) : FVec Ideal S512x8x8 .f32 :=
  matmul D3 none (truncf .bf16 P bitsLt_bf16_f32) (truncf .bf16 Q bitsLt_bf16_f32) (constant S512x8x8 .f32 0x00000000#32)

theorem sl_bmm (P Q : FVec Ideal S512x8x8 .f32) (n : Fin 512) : sl (bmm P Q) n = mm (sl P n) (sl Q n) := by
  unfold bmm
  rw [sl_matmul, sl_truncf, sl_truncf]

/-- w₀·A + w₁·A² + w₂·A³ + w₃·A⁴, summed from the left. -/
theorem sl_pay12 (v0 : Vec Ideal S512x8x8 .f32) (x0 : Vec Ideal S14 .f32) (n : Fin 512) :
    sl (k0_pay12 v0 x0) n = fun p q =>
      wv x0 0 * resid (sl (φ := .f32) v0 n) p q + wv x0 1 * pow2 (resid (sl (φ := .f32) v0 n)) p q
        + wv x0 2 * pow3 (resid (sl (φ := .f32) v0 n)) p q + wv x0 3 * pow4 (resid (sl (φ := .f32) v0 n)) p q := by
  have e : k0_pay12 v0 x0 = addf (addf (addf
        (mulf (broadcast S512x8x8 (extractAt ![0] (extractStridedSlice S1 ![0] x0 slices_S14_o0_S1) inpos_S1_p0)) (k0_pay4 v0))
        (mulf (broadcast S512x8x8 (extractAt ![0] (extractStridedSlice S1 ![1] x0 slices_S14_o1_S1) inpos_S1_p0)) (k0_pay9 v0)))
        (mulf (broadcast S512x8x8 (extractAt ![0] (extractStridedSlice S1 ![2] x0 slices_S14_o2_S1) inpos_S1_p0)) (k0_pay10 v0)))
        (mulf (broadcast S512x8x8 (extractAt ![0] (extractStridedSlice S1 ![3] x0 slices_S14_o3_S1) inpos_S1_p0)) (k0_pay11 v0)) := rfl
  rw [e, sl_addf, sl_addf, sl_addf, sl_scale, sl_scale, sl_scale, sl_scale, sl_pay4, sl_pay9, sl_pay10, sl_pay11,
    show extractAt ![0] (extractStridedSlice S1 ![0] x0 slices_S14_o0_S1) inpos_S1_p0 = wv x0 0 from weight_entry x0 0 _ _,
    show extractAt ![0] (extractStridedSlice S1 ![1] x0 slices_S14_o1_S1) inpos_S1_p0 = wv x0 1 from weight_entry x0 1 _ _,
    show extractAt ![0] (extractStridedSlice S1 ![2] x0 slices_S14_o2_S1) inpos_S1_p0 = wv x0 2 from weight_entry x0 2 _ _,
    show extractAt ![0] (extractStridedSlice S1 ![3] x0 slices_S14_o3_S1) inpos_S1_p0 = wv x0 3 from weight_entry x0 3 _ _]

/-- The later weights, each one entry of the weight vector. -/
theorem pay5_eq (x0 : Vec Ideal S14 .f32) : k0_pay5 x0 = wv x0 4 := weight_entry x0 4 _ _
theorem pay6_eq (x0 : Vec Ideal S14 .f32) : k0_pay6 x0 = wv x0 5 := weight_entry x0 5 _ _
theorem pay7_eq (x0 : Vec Ideal S14 .f32) : k0_pay7 x0 = wv x0 6 := weight_entry x0 6 _ _
theorem pay8_eq (x0 : Vec Ideal S14 .f32) : k0_pay8 x0 = wv x0 7 := weight_entry x0 7 _ _

/-- A⁵, A⁶, A⁷ as the body continues the chain from A⁴. -/
def p5 (v0 : Vec Ideal S512x8x8 .f32) : FVec Ideal S512x8x8 .f32 := bmm (k0_pay11 v0) (k0_pay4 v0)
def p6 (v0 : Vec Ideal S512x8x8 .f32) : FVec Ideal S512x8x8 .f32 := bmm (p5 v0) (k0_pay4 v0)
def p7 (v0 : Vec Ideal S512x8x8 .f32) : FVec Ideal S512x8x8 .f32 := bmm (p6 v0) (k0_pay4 v0)

theorem sl_p5 (v0 : Vec Ideal S512x8x8 .f32) (n : Fin 512) : sl (p5 v0) n = pow5 (resid (sl (φ := .f32) v0 n)) := by
  unfold p5; rw [sl_bmm, sl_pay11, sl_pay4]; rfl
theorem sl_p6 (v0 : Vec Ideal S512x8x8 .f32) (n : Fin 512) : sl (p6 v0) n = pow6 (resid (sl (φ := .f32) v0 n)) := by
  unfold p6; rw [sl_bmm, sl_p5, sl_pay4]; rfl
theorem sl_p7 (v0 : Vec Ideal S512x8x8 .f32) (n : Fin 512) : sl (p7 v0) n = pow7 (resid (sl (φ := .f32) v0 n)) := by
  unfold p7; rw [sl_bmm, sl_p6, sl_pay4]; rfl

/-- THE STORED TILE, matrix by matrix: matrix `n` of what the body stores is the layer function of matrix `n` of the
    loaded tile and the weights. -/
theorem sl_stored (x0 : Vec Ideal S14 .f32) (x1 : Vec Ideal S512x8x8 .f32) (n : Fin 512) :
    sl (k0_pay1 (k0_pay2 x1) (k0_pay3 (F := Ideal)) (k0_pay4 x1) (k0_pay5 x0) (k0_pay6 x0) (k0_pay7 x0) (k0_pay8 x0) (k0_pay12 x1 x0) (k0_pay13 x1)) n
      = layer (wv x0) (sl (φ := .f32) x1 n) := by
  have e : k0_pay1 (k0_pay2 x1) (k0_pay3 (F := Ideal)) (k0_pay4 x1) (k0_pay5 x0) (k0_pay6 x0) (k0_pay7 x0) (k0_pay8 x0) (k0_pay12 x1 x0) (k0_pay13 x1)
      = addf (k0_pay2 x1) (bmm (addf (addf (addf (addf (k0_pay12 x1 x0)
          (mulf (broadcast S512x8x8 (k0_pay5 x0)) (p5 x1))) (mulf (broadcast S512x8x8 (k0_pay6 x0)) (p6 x1)))
          (mulf (broadcast S512x8x8 (k0_pay7 x0)) (p7 x1))) (mulf (broadcast S512x8x8 (k0_pay8 x0)) (k0_pay3 (F := Ideal)))) (k0_pay2 x1)) := rfl
  rw [e, sl_addf, sl_bmm, sl_addf, sl_addf, sl_addf, sl_addf, sl_scale, sl_scale, sl_scale, sl_scale, sl_pay12, sl_p5, sl_p6, sl_p7, sl_eye,
    pay2_eq, pay5_eq, pay6_eq, pay7_eq, pay8_eq]
  rfl

/-- The same at an entry. -/
theorem stored_apply (x0 : Vec Ideal S14 .f32) (x1 : Vec Ideal S512x8x8 .f32) (n : Fin 512) (p q : Fin 8) :
    k0_pay1 (k0_pay2 x1) (k0_pay3 (F := Ideal)) (k0_pay4 x1) (k0_pay5 x0) (k0_pay6 x0) (k0_pay7 x0) (k0_pay8 x0) (k0_pay12 x1 x0) (k0_pay13 x1) (ix3 n p q)
      = layer (wv x0) (sl (φ := .f32) x1 n) p q :=
  congrFun (congrFun (sl_stored x0 x1 n) p) q

/-- THE STORED TILE AS A BLOCK OF THE WHOLE ARRAY. If the loaded tile is 512 consecutive matrices of an array `Y`, from matrix
    `base` on, and the loaded weights are `w`, then the stored tile at an entry is the whole-array layer of `Y` and `w` at the
    entry `base` matrices further along. -/
theorem stored_block (x0 : Vec Ideal S14 .f32) (x1 : Vec Ideal S512x8x8 .f32) (Y : S262144x8x8.Idx → EReal) (w : S14.Idx → EReal)
    (base : Nat)
    (hx1 : ∀ (n : Fin 512) (r s : Fin 8) (N : Fin 262144), N.val = base + n.val → x1 (ix3 n r s) = Y (ix3 N r s))
    (hx0 : ∀ k : Fin 14, x0 (ix1 k) = w (ix1 k))
    (j : S512x8x8.Idx) (i : S262144x8x8.Idx) (h0 : (i 0).val = base + (j 0).val) (h1 : (i 1).val = (j 1).val) (h2 : (i 2).val = (j 2).val) :
    k0_pay1 (k0_pay2 x1) (k0_pay3 (F := Ideal)) (k0_pay4 x1) (k0_pay5 x0) (k0_pay6 x0) (k0_pay7 x0) (k0_pay8 x0) (k0_pay12 x1 x0) (k0_pay13 x1) j
      = layer3 Y w i := by
  obtain ⟨n, p, q, rfl⟩ : ∃ (n : Fin 512) (p q : Fin 8), j = ix3 n p q := ⟨j 0, j 1, j 2, eq_ix3 j⟩
  obtain ⟨N, p', q', rfl⟩ : ∃ (N : Fin 262144) (p' q' : Fin 8), i = ix3 N p' q' := ⟨i 0, i 1, i 2, eq_ix3 i⟩
  obtain rfl : p' = p := Fin.ext h1
  obtain rfl : q' = q := Fin.ext h2
  rw [stored_apply, layer3_apply]
  have ew : wv x0 = fun k => w (ix1 k) := funext fun k => hx0 k
  have ex : sl (φ := .f32) x1 n = fun r s => Y (ix3 N r s) := funext fun r => funext fun s => hx1 n r s N h0
  rw [ew, ex]

end Cert.KernelIdeal.Block

end
-- ==== Proof.KernelArray.lean ====
/-
  From the kernel's blocks to its whole output array.

  The pipeline cuts the flat [262144, 8, 8] array into 512 blocks of 512 matrices; grid point t loads block t of the
  input (matrices 512·t … 512·t + 511) and the whole weight vector, and writes block t of the output. Since the body
  maps matrix n of the loaded block to the layer of that matrix, what point t writes back is block t of the layer of
  the whole input array; the 512 blocks tile the output array (index N lies in block N / 512), so after the run the
  output array IS the layer of the input array as the region found it.
-/
import proofs.«178857_j69380901700219_1_alg».proof.Proof.Gen.KernelIdeal.Frame
import proofs.«178857_j69380901700219_1_alg».proof.Proof.KernelBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Block Idealize.ShloMosaic.ValueIdx Cert.MatPoly

variable (m : (ℓ : Loc nD τ sig) → Buf (Elt Ideal) ℓ) (ρ : Dev nD → PrngReg)

theorem hz3 : (![0, 0, 0] : Fin 3 → Nat) = fun _ => 0 := funext fun a => by fin_cases a <;> rfl
theorem hz1 : (![0] : Fin 1 → Nat) = fun _ => 0 := funext fun a => by fin_cases a <;> rfl

/-- The printed index maps, decided over the 512 grid points: the weight window stays at block 0, and the input and
    output windows are both at block t along the matrix axis and block 0 along the two axes within a matrix. -/
theorem idx_facts : ∀ t : Fin cfg0.N,
    win0_0.index t (0 : Fin 1) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The weight window's block at any point is the whole weight vector as the region found it. -/
theorem iblk0_apply (c : Dev nD) (t : Fin cfg0.N) (k : Fin 14) :
    (iblk m c 0 t : Vec Ideal S14 .f32) (ix1 k) = (V m c main_arg1 : S14.Idx → EReal) (ix1 k) := by
  obtain ⟨e0, -⟩ := idx_facts t
  unfold iblk
  rw [View.read_apply]
  show V m c main_arg1 _ = V m c main_arg1 _
  congr 1
  funext a
  apply Fin.ext
  match a with
  | ⟨0, _⟩ => show win0_0.index t (0 : Fin 1) * 14 + 1 * k.val = k.val; rw [e0]; omega

/-- The input window's block at point t is matrices 512·t … 512·t + 511 of the flat input array as the region found it. -/
theorem iblk1_apply (c : Dev nD) (t : Fin cfg0.N) (n : Fin 512) (r s : Fin 8) (N : Fin 262144) (hN : N.val = t.val * 512 + n.val) :
    (iblk m c 1 t : Vec Ideal S512x8x8 .f32) (ix3 n r s) = (V m c main_v0 : S262144x8x8.Idx → EReal) (ix3 N r s) := by
  obtain ⟨-, e1, e2, e3, -⟩ := idx_facts t
  unfold iblk
  rw [View.read_apply]
  show V m c main_v0 _ = V m c main_v0 _
  congr 1
  funext a
  apply Fin.ext
  match a with
  | ⟨0, _⟩ => show win0_1.index t (0 : Fin 3) * 512 + 1 * n.val = N.val; rw [e1, hN]; omega
  | ⟨1, _⟩ => show win0_1.index t (1 : Fin 3) * 8 + 1 * r.val = r.val; rw [e2]; omega
  | ⟨2, _⟩ => show win0_1.index t (2 : Fin 3) * 8 + 1 * s.val = s.val; rw [e3]; omega

/-- WHAT POINT t WRITES BACK is block t of the layer of the flat input array and the weights as the region found them. -/
theorem flushed_eq (c : Dev nD) (t : Fin cfg0.N) :
    (dats m 0 c).flushed 2 t
      = ((cfg0.win 2).blk t).view.read (Elt Ideal) (layer3 (V m c main_v0) (V m c main_arg1)) := by
  show (cfg0.win 2).cut (grid0.coords t) ((dats m 0 c).after 2 t) = _
  rw [after0_2]
  unfold out0_2
  rw [View.canon_unit_zero hz3]
  simp only [View.ld_unit_zero (S := S512x8x8) hz3, View.ld_unit_zero (S := S14) hz1]
  obtain ⟨-, -, -, -, e4, e5, e6⟩ := idx_facts t
  funext j
  show k0_pay1 (k0_pay2 (iblk m c 1 t)) (k0_pay3 (F := Ideal)) (k0_pay4 (iblk m c 1 t)) (k0_pay5 (iblk m c 0 t)) (k0_pay6 (iblk m c 0 t))
      (k0_pay7 (iblk m c 0 t)) (k0_pay8 (iblk m c 0 t)) (k0_pay12 (iblk m c 1 t) (iblk m c 0 t)) (k0_pay13 (iblk m c 1 t)) j
    = layer3 (V m c main_v0) (V m c main_arg1) (((cfg0.win 2).blk t).view.emb j)
  refine stored_block (iblk m c 0 t) (iblk m c 1 t) (V m c main_v0) (V m c main_arg1) (t.val * 512)
    (fun n r s N hN => iblk1_apply m c t n r s N hN) (fun k => iblk0_apply m c t k) j (((cfg0.win 2).blk t).view.emb j) ?_ ?_ ?_
  · show win0_2.index t (0 : Fin 3) * 512 + 1 * (j 0).val = t.val * 512 + (j 0).val; rw [e4]; omega
  · show win0_2.index t (1 : Fin 3) * 8 + 1 * (j 1).val = (j 1).val; rw [e5]; omega
  · show win0_2.index t (2 : Fin 3) * 8 + 1 * (j 2).val = (j 2).val; rw [e6]; omega

/-- An index of the output array is in point t's block iff each coordinate is in the block's range on its axis. -/
theorem mem_blk (t : Fin cfg0.N) (i : S262144x8x8.Idx) :
    i ∈ ((cfg0.win 2).blk t).view.set ↔ ∀ a : Fin 3, win0_2.index t a * S512x8x8.size a ≤ (i a).val
      ∧ (i a).val < win0_2.index t a * S512x8x8.size a + S512x8x8.size a := by
  show i ∈ ((View.whole main_v1).slice (win0_2.rect t)).set ↔ _
  rw [View.set_slice_whole, Rect.mem_set_unit]
  exact Iff.rfl

/-- Every index of the output array is in some point's block: matrix N is in block N / 512. -/
theorem cover (i : S262144x8x8.Idx) : ∃ t : Fin cfg0.N, (cfg0.win 2).flush t = true ∧ i ∈ ((cfg0.win 2).blk t).view.set := by
  have hN : cfg0.N = 512 := N_0
  have hi0 : (i 0).val < 262144 := (i 0).isLt
  have hi1 : (i 1).val < 8 := (i 1).isLt
  have hi2 : (i 2).val < 8 := (i 2).isLt
  have hlt : (i 0).val / 512 < cfg0.N := by rw [hN]; omega
  refine ⟨⟨(i 0).val / 512, hlt⟩, flush0_2 _, ?_⟩
  rw [mem_blk]
  obtain ⟨-, -, -, -, e4, e5, e6⟩ := idx_facts ⟨(i 0).val / 512, hlt⟩
  intro a
  match a with
  | ⟨0, _⟩ =>
    show win0_2.index ⟨(i 0).val / 512, hlt⟩ (0 : Fin 3) * 512 ≤ (i 0).val ∧ (i 0).val < win0_2.index ⟨(i 0).val / 512, hlt⟩ (0 : Fin 3) * 512 + 512
    rw [e4]
    show (i 0).val / 512 * 512 ≤ (i 0).val ∧ (i 0).val < (i 0).val / 512 * 512 + 512
    omega
  | ⟨1, _⟩ =>
    show win0_2.index ⟨(i 0).val / 512, hlt⟩ (1 : Fin 3) * 8 ≤ (i 1).val ∧ (i 1).val < win0_2.index ⟨(i 0).val / 512, hlt⟩ (1 : Fin 3) * 8 + 8
    rw [e5]; omega
  | ⟨2, _⟩ =>
    show win0_2.index ⟨(i 0).val / 512, hlt⟩ (2 : Fin 3) * 8 ≤ (i 2).val ∧ (i 2).val < win0_2.index ⟨(i 0).val / 512, hlt⟩ (2 : Fin 3) * 8 + 8
    rw [e6]; omega

/-- THE OUTPUT ARRAY after the run: the layer of the flat input array and the weights as the region found them. -/
theorem final (c : Dev nD) : (dats m 0 c).arrAt 2 cfg0.N = layer3 (V m c main_v0) (V m c main_arg1) :=
  (dats m 0 c).arrAt_eq_of_cover 2 (layer3 (V m c main_v0) (V m c main_arg1)) (fun t _ => flushed_eq m c t) (cover)

end Cert.KernelIdeal.Arr

end
-- ==== Proof.Reshape.lean ====
/-
  Flattening the two leading axes commutes with the layer.

  The kernel's program reshapes the [2048, 128, 8, 8] input to [262144, 8, 8], applies the layer to each of the 262144
  matrices, and reshapes back. A reshape keeps row-major positions, and matrix (a, b) sits at flat position 128·a + b with
  its entries in the same order, so the round trip is the layer applied to each matrix (a, b) directly.
-/
import proofs.«178857_j69380901700219_1_alg».proof.Proof.Spec
import Idealize.ShloMosaic.Lib.Pipeline.Value

noncomputable section

namespace Cert.MatPoly

open Idealize.ShloMosaic Idealize.ShloMosaic.ValueIdx

/-- Entry (128·a + b, r, s) of the flattened array is entry (a, b, r, s) of the array. -/
theorem flatten_apply (X : (⟨4, ![2048, 128, 8, 8]⟩ : Shape).Idx → EReal)
    (h43 : (⟨4, ![2048, 128, 8, 8]⟩ : Shape).ShapeCasts ⟨3, ![262144, 8, 8]⟩)
    (a : Fin 2048) (b : Fin 128) (r s : Fin 8) (N : Fin 262144) (hN : N.val = a.val * 128 + b.val) :
    shapeCast (⟨3, ![262144, 8, 8]⟩ : Shape) X h43 (ix3 N r s) = X (ix4 a b r s) := by
  refine shapeCast_apply X h43 (ix3 N r s) (ix4 a b r s) ?_
  rw [Shape.rowMajor_val_three, Shape.rowMajor_val_four]
  show ((a.val * 128 + b.val) * 8 + r.val) * 8 + s.val = (N.val * 8 + r.val) * 8 + s.val
  rw [hN]

/-- Flatten, apply the layer matrix by matrix, un-flatten: the layer on the rank-4 array. -/
theorem layer3_flatten (X : (⟨4, ![2048, 128, 8, 8]⟩ : Shape).Idx → EReal) (w : (⟨1, ![14]⟩ : Shape).Idx → EReal)
    (h43 : (⟨4, ![2048, 128, 8, 8]⟩ : Shape).ShapeCasts ⟨3, ![262144, 8, 8]⟩)
    (h34 : (⟨3, ![262144, 8, 8]⟩ : Shape).ShapeCasts ⟨4, ![2048, 128, 8, 8]⟩) :
    shapeCast (⟨4, ![2048, 128, 8, 8]⟩ : Shape) (layer3 (shapeCast (⟨3, ![262144, 8, 8]⟩ : Shape) X h43) w) h34 = layer4 X w := by
  funext i
  obtain ⟨a, b, p, q, rfl⟩ : ∃ (a : Fin 2048) (b : Fin 128) (p q : Fin 8), i = ix4 a b p q := ⟨i 0, i 1, i 2, i 3, eq_ix4 i⟩
  have hlt : a.val * 128 + b.val < 262144 := by have := a.isLt; have := b.isLt; omega
  refine (shapeCast_apply _ h34 (ix4 a b p q) (ix3 (⟨a.val * 128 + b.val, hlt⟩ : Fin 262144) p q) ?_).trans ?_
  · rw [Shape.rowMajor_val_three, Shape.rowMajor_val_four]
    show ((a.val * 128 + b.val) * 8 + p.val) * 8 + q.val = ((a.val * 128 + b.val) * 8 + p.val) * 8 + q.val
    rfl
  · rw [layer3_apply, layer4_apply]
    have e : (fun r s => shapeCast (⟨3, ![262144, 8, 8]⟩ : Shape) X h43 (ix3 (⟨a.val * 128 + b.val, hlt⟩ : Fin 262144) r s))
        = fun r s => X (ix4 a b r s) :=
      funext fun r => funext fun s => flatten_apply X h43 a b r s _ rfl
    rw [e]

end Cert.MatPoly

end
-- ==== Proof.KernelRun.lean ====
/-
  The kernel program's run, read: its result array is the layer of its argument array.

  Around the pipeline the program has two host operations: it flattens the [2048, 128, 8, 8] argument to [262144, 8, 8]
  before the region, and un-flattens the region's output afterwards. The region finds the flat input at the flattened
  argument and the weights as launched; its output array ends at the layer of those (the blocks-to-array step); the
  result is that array un-flattened, which is the layer on the rank-4 argument (flattening commutes with the layer).
-/
import proofs.«178857_j69380901700219_1_alg».proof.Proof.Gen.KernelIdeal.Frame
import proofs.«178857_j69380901700219_1_alg».proof.Proof.KernelArray
import proofs.«178857_j69380901700219_1_alg».proof.Proof.Reshape
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.Arr Idealize.ShloMosaic.ValueIdx Cert.MatPoly

variable (m : (ℓ : Loc nD τ sig) → Buf (Elt Ideal) ℓ) (ρ : Dev nD → PrngReg)

/-- The region finds the flat input array at the argument, flattened. -/
theorem V_main_v0 (c : Dev nD) :
    (V m c main_v0 : S262144x8x8.Idx → EReal)
      = shapeCast S262144x8x8 (m ((c : Thread nD τ).loc main_arg0)) shapeCasts_S2048x128x8x8_S262144x8x8 := by
  show StableHlo.after hostOps0 (fun b => m (c, b)) (Proc.devRef .tc main_v0) = _
  after_results
  rfl

/-- The program's result after the region: the region's output array, un-flattened. -/
theorem tail_main_v2 (c : Dev nD) :
    Pipeline.afterTail₀ cfgs (dats m) 0 (V0 m) [hostOps1] c main_v2
      = shapeCast S2048x128x8x8 ((dats m 0 c).arrAt 2 cfg0.N) shapeCasts_S262144x8x8_S2048x128x8x8 := by
  unfold Pipeline.afterTail₀
  show StableHlo.after hostOps1 _ (Proc.devRef .tc main_v2) = _
  after_results
  rw [Pipeline.withArrays_arr spec0 launch0.win.arr_inj c _ _ 2]
  rfl

/-- So the result is the layer of the argument array and the weights. -/
theorem result_eq (c : Dev nD) :
    Pipeline.afterTail₀ cfgs (dats m) 0 (V0 m) [hostOps1] c main_v2
      = layer4 (m ((c : Thread nD τ).loc main_arg0)) (m ((c : Thread nD τ).loc main_arg1)) := by
  rw [tail_main_v2, final, V_main_v0, V_main_arg1]
  exact layer3_flatten _ _ _ _

/-- THE RUN, READ: every weakly fair execution of the kernel's program terminates with its result array at the layer of its
    arguments, the arguments unchanged. -/
theorem run : θ_run defs (onTc (τ := τ) (main (F := Ideal))) ⟨m, fun _ => 0, ρ⟩ fun r => ∀ c : Dev nD,
      r.2.mem ((c.tc : Thread nD τ).loc main_v2) = layer4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c)))⟩)
    (run_main m ρ)

end Cert.KernelIdeal.RunValue

end
-- ==== Proof.RefStages.lean ====
/-
  The reference, read one 8×8 block at a time.

  The reference works on the [2048, 128, 8, 8] array directly: 2048·128 independent 8×8 matrices, indexed by the two
  leading coordinates (a, b). Each of its matrix products contracts within a matrix (the two leading axes are batch
  axes), its transpose swaps the two matrix axes, the identity and the weights are broadcast along the leading axes,
  and everything else is pointwise: matrix (a, b) of the result is the layer function (`Cert.MatPoly.layer`) of
  matrix (a, b) of the input and of the weights.
-/
import proofs.«178857_j69380901700219_1_alg».proof.Proof.Gen.ReferenceIdeal.Read
import proofs.«178857_j69380901700219_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.MatPoly

/-- Matrix (a, b) of a [2048, 128, 8, 8] array. -/
def sl4 (v : S2048x128x8x8.Idx → EReal) (a : Fin 2048) (b : Fin 128) : Mat8 := fun r s => v (ix4 a b r s)

/-- The weight vector as a function of its position. -/
def wv (x1 : S14.Idx → EReal) : Fin 14 → EReal := fun k => x1 (ix1 k)

/-! ## A product over the two batch axes, matrix by matrix -/

/-- The left operand's index of a product at (a, b, p, q) and contraction position k is (a, b, p, k), -/
theorem lidx_eq (a : Fin 2048) (b : Fin 128) (p q k : Fin 8) : lidx_main_v7 (ix4 a b p q) k = ix4 a b p k :=
  funext fun d => Fin.ext (by match d with | ⟨0, _⟩ => rfl | ⟨1, _⟩ => rfl | ⟨2, _⟩ => rfl | ⟨3, _⟩ => rfl)
/-- and the right operand's is (a, b, k, q). -/
theorem ridx_eq (a : Fin 2048) (b : Fin 128) (p q k : Fin 8) : ridx_main_v7 (ix4 a b p q) k = ix4 a b k q :=
  funext fun d => Fin.ext (by match d with | ⟨0, _⟩ => rfl | ⟨1, _⟩ => rfl | ⟨2, _⟩ => rfl | ⟨3, _⟩ => rfl)

/-- So a sum over k of l at the left index times r at the right index is the product of the two matrices (a, b). -/
theorem dot_sl4 (l r : S2048x128x8x8.Idx → EReal) (a : Fin 2048) (b : Fin 128) (p q : Fin 8) :
    ∑ k : Fin 8, l (lidx_main_v7 (ix4 a b p q) k) * r (ridx_main_v7 (ix4 a b p q) k) = mm (sl4 l a b) (sl4 r a b) p q :=
  Finset.sum_congr rfl fun k _ => by rw [lidx_eq, ridx_eq]; rfl

/-- The transposed input's matrix (a, b) is the transpose of the input's. -/
theorem sl4_v6 (x0 : S2048x128x8x8.Idx → EReal) (a : Fin 2048) (b : Fin 128) :
    sl4 (val_main_v6 (F := Ideal) x0) a b = fun r s => sl4 x0 a b s r := by
  funext r s
  show val_main_v6 (F := Ideal) x0 (ix4 a b r s) = x0 (ix4 a b s r)
  rw [val_main_v6_apply]
  exact congrArg x0 (funext fun d => Fin.ext (by match d with | ⟨0, _⟩ => rfl | ⟨1, _⟩ => rfl | ⟨2, _⟩ => rfl | ⟨3, _⟩ => rfl))

/-- x·xᵀ. -/
theorem sl4_v7 (x0 : S2048x128x8x8.Idx → EReal) (a : Fin 2048) (b : Fin 128) :
    sl4 (val_main_v7 (F := Ideal) x0) a b = gram (sl4 x0 a b) := by
  funext p q
  show val_main_v7 (F := Ideal) x0 (ix4 a b p q) = gram (sl4 x0 a b) p q
  rw [val_main_v7_apply, dot_sl4, sl4_v6]
  rfl

/-! ## The identity matrix, as the reference builds it -/

/-- Comparing the row number (plus zero) with the column number and reading the bit as an unsigned integer gives one
    on the diagonal and zero off it. -/
theorem eye_entry : ∀ p q : Fin 8,
    (IntOp.cmpi .eq (IntOp.addi (BitVec.ofNat 32 p.val) 0#32) (BitVec.ofNat 32 q.val)).toNat = if p = q then 1 else 0 := by
  decide

theorem v5_entry (p q : Fin 8) : val_main_v5 (F := Ideal) (ix2 p q) = eye p q := by
  show ((((IntOp.cmpi .eq (IntOp.addi (BitVec.ofNat 32 p.val) 0#32) (BitVec.ofNat 32 q.val)).toNat : ℝ)) : EReal) = eye p q
  rw [eye_entry p q]
  unfold eye
  by_cases h : p = q
  · rw [if_pos h, if_pos h]; norm_num
  · rw [if_neg h, if_neg h]; norm_num

/-- The identity broadcast along the two leading axes holds the identity in every matrix. -/
theorem sl4_v9 (a : Fin 2048) (b : Fin 128) : sl4 (val_main_v9 (F := Ideal)) a b = eye := by
  funext p q
  show val_main_v9 (F := Ideal) (ix4 a b p q) = eye p q
  rw [val_main_v9_apply, val_main_v8_apply]
  exact v5_entry p q

/-- A = I − x·xᵀ. -/
theorem sl4_v10 (x0 : S2048x128x8x8.Idx → EReal) (a : Fin 2048) (b : Fin 128) :
    sl4 (val_main_v10 (F := Ideal) x0) a b = resid (sl4 x0 a b) := by
  funext p q
  show sl4 (val_main_v9 (F := Ideal)) a b p q - sl4 (val_main_v7 (F := Ideal) x0) a b p q = resid (sl4 x0 a b) p q
  rw [sl4_v9, sl4_v7]
  rfl

/-! ## The powers -/

theorem sl4_v11 (x0 : S2048x128x8x8.Idx → EReal) (a : Fin 2048) (b : Fin 128) :
    sl4 (val_main_v11 (F := Ideal) x0) a b = pow2 (resid (sl4 x0 a b)) := by
  funext p q
  show val_main_v11 (F := Ideal) x0 (ix4 a b p q) = _
  rw [val_main_v11_apply]
  refine (dot_sl4 _ _ a b p q).trans ?_
  rw [sl4_v10]; rfl
theorem sl4_v12 (x0 : S2048x128x8x8.Idx → EReal) (a : Fin 2048) (b : Fin 128) :
    sl4 (val_main_v12 (F := Ideal) x0) a b = pow3 (resid (sl4 x0 a b)) := by
  funext p q
  show val_main_v12 (F := Ideal) x0 (ix4 a b p q) = _
  rw [val_main_v12_apply]
  refine (dot_sl4 _ _ a b p q).trans ?_
  rw [sl4_v11, sl4_v10]; rfl
theorem sl4_v13 (x0 : S2048x128x8x8.Idx → EReal) (a : Fin 2048) (b : Fin 128) :
    sl4 (val_main_v13 (F := Ideal) x0) a b = pow4 (resid (sl4 x0 a b)) := by
  funext p q
  show val_main_v13 (F := Ideal) x0 (ix4 a b p q) = _
  rw [val_main_v13_apply]
  refine (dot_sl4 _ _ a b p q).trans ?_
  rw [sl4_v12, sl4_v10]; rfl
theorem sl4_v14 (x0 : S2048x128x8x8.Idx → EReal) (a : Fin 2048) (b : Fin 128) :
    sl4 (val_main_v14 (F := Ideal) x0) a b = pow5 (resid (sl4 x0 a b)) := by
  funext p q
  show val_main_v14 (F := Ideal) x0 (ix4 a b p q) = _
  rw [val_main_v14_apply]
  refine (dot_sl4 _ _ a b p q).trans ?_
  rw [sl4_v13, sl4_v10]; rfl
theorem sl4_v15 (x0 : S2048x128x8x8.Idx → EReal) (a : Fin 2048) (b : Fin 128) :
    sl4 (val_main_v15 (F := Ideal) x0) a b = pow6 (resid (sl4 x0 a b)) := by
  funext p q
  show val_main_v15 (F := Ideal) x0 (ix4 a b p q) = _
  rw [val_main_v15_apply]
  refine (dot_sl4 _ _ a b p q).trans ?_
  rw [sl4_v14, sl4_v10]; rfl
theorem sl4_v16 (x0 : S2048x128x8x8.Idx → EReal) (a : Fin 2048) (b : Fin 128) :
    sl4 (val_main_v16 (F := Ideal) x0) a b = pow7 (resid (sl4 x0 a b)) := by
  funext p q
  show val_main_v16 (F := Ideal) x0 (ix4 a b p q) = _
  rw [val_main_v16_apply]
  refine (dot_sl4 _ _ a b p q).trans ?_
  rw [sl4_v15, sl4_v10]; rfl

/-! ## The weights -/

/-- One entry sliced out of the weight vector at offset `k`, reshaped to a scalar, reads entry `k`. -/
theorem scalar_entry (x1 : S14.Idx → EReal) (k : Fin 14) (hs : S14.Slices ![k.val] S1) (hc : S1.ShapeCasts S_) (j : S_.Idx) :
    shapeCast S_ (extractStridedSlice S1 ![k.val] x1 hs) hc j = wv x1 k := by
  refine (shapeCast_apply _ hc j (ix1 (0 : Fin 1)) ?_).trans ?_
  · rw [Shape.rowMajor_val_one]
    have h := (S_.rowMajor j).isLt
    have h1 : S_.numel = 1 := by decide
    show 0 = (S_.rowMajor j).val
    omega
  · unfold extractStridedSlice wv
    exact congrArg x1 (funext fun d => Fin.ext (by match d with | ⟨0, _⟩ => rfl))

/-- Each weight broadcast over the whole array reads its entry of the weight vector everywhere. -/
theorem v19_entry (x1 : S14.Idx → EReal) (i : S2048x128x8x8.Idx) : val_main_v19 (F := Ideal) x1 i = wv x1 0 := by
  rw [val_main_v19_apply]; exact scalar_entry x1 0 _ _ _
theorem v23_entry (x1 : S14.Idx → EReal) (i : S2048x128x8x8.Idx) : val_main_v23 (F := Ideal) x1 i = wv x1 1 := by
  rw [val_main_v23_apply]; exact scalar_entry x1 1 _ _ _
theorem v28_entry (x1 : S14.Idx → EReal) (i : S2048x128x8x8.Idx) : val_main_v28 (F := Ideal) x1 i = wv x1 2 := by
  rw [val_main_v28_apply]; exact scalar_entry x1 2 _ _ _
theorem v33_entry (x1 : S14.Idx → EReal) (i : S2048x128x8x8.Idx) : val_main_v33 (F := Ideal) x1 i = wv x1 3 := by
  rw [val_main_v33_apply]; exact scalar_entry x1 3 _ _ _
theorem v38_entry (x1 : S14.Idx → EReal) (i : S2048x128x8x8.Idx) : val_main_v38 (F := Ideal) x1 i = wv x1 4 := by
  rw [val_main_v38_apply]; exact scalar_entry x1 4 _ _ _
theorem v43_entry (x1 : S14.Idx → EReal) (i : S2048x128x8x8.Idx) : val_main_v43 (F := Ideal) x1 i = wv x1 5 := by
  rw [val_main_v43_apply]; exact scalar_entry x1 5 _ _ _
theorem v48_entry (x1 : S14.Idx → EReal) (i : S2048x128x8x8.Idx) : val_main_v48 (F := Ideal) x1 i = wv x1 6 := by
  rw [val_main_v48_apply]; exact scalar_entry x1 6 _ _ _
theorem v53_entry (x1 : S14.Idx → EReal) (i : S8x8.Idx) : val_main_v53 (F := Ideal) x1 i = wv x1 7 := by
  rw [val_main_v53_apply]; exact scalar_entry x1 7 _ _ _

/-- w₇·I, formed on one 8×8 matrix and then broadcast along the two leading axes. -/
theorem sl4_v56 (x1 : S14.Idx → EReal) (a : Fin 2048) (b : Fin 128) :
    sl4 (val_main_v56 (F := Ideal) x1) a b = fun p q => wv x1 7 * eye p q := by
  funext p q
  show val_main_v56 (F := Ideal) x1 (ix4 a b p q) = wv x1 7 * eye p q
  rw [val_main_v56_apply, val_main_v55_apply]
  show val_main_v53 (F := Ideal) x1 (ix2 p q) * val_main_v5 (F := Ideal) (ix2 p q) = wv x1 7 * eye p q
  rw [v53_entry, v5_entry]

/-! ## The combination and the result -/

/-- Mat = w₀·A + w₁·A² + … + w₆·A⁷ + w₇·I. -/
theorem sl4_v57 (x0 : S2048x128x8x8.Idx → EReal) (x1 : S14.Idx → EReal) (a : Fin 2048) (b : Fin 128) :
    sl4 (val_main_v57 (F := Ideal) x0 x1) a b = comb (wv x1) (resid (sl4 x0 a b)) := by
  funext p q
  show val_main_v19 (F := Ideal) x1 (ix4 a b p q) * sl4 (val_main_v10 (F := Ideal) x0) a b p q
      + val_main_v23 (F := Ideal) x1 (ix4 a b p q) * sl4 (val_main_v11 (F := Ideal) x0) a b p q
      + val_main_v28 (F := Ideal) x1 (ix4 a b p q) * sl4 (val_main_v12 (F := Ideal) x0) a b p q
      + val_main_v33 (F := Ideal) x1 (ix4 a b p q) * sl4 (val_main_v13 (F := Ideal) x0) a b p q
      + val_main_v38 (F := Ideal) x1 (ix4 a b p q) * sl4 (val_main_v14 (F := Ideal) x0) a b p q
      + val_main_v43 (F := Ideal) x1 (ix4 a b p q) * sl4 (val_main_v15 (F := Ideal) x0) a b p q
      + val_main_v48 (F := Ideal) x1 (ix4 a b p q) * sl4 (val_main_v16 (F := Ideal) x0) a b p q
      + sl4 (val_main_v56 (F := Ideal) x1) a b p q = comb (wv x1) (resid (sl4 x0 a b)) p q
  rw [v19_entry, v23_entry, v28_entry, v33_entry, v38_entry, v43_entry, v48_entry, sl4_v10, sl4_v11, sl4_v12, sl4_v13, sl4_v14,
    sl4_v15, sl4_v16, sl4_v56]
  rfl

/-- THE REFERENCE'S RESULT, matrix by matrix: x + Mat·x. -/
theorem sl4_v59 (x0 : S2048x128x8x8.Idx → EReal) (x1 : S14.Idx → EReal) (a : Fin 2048) (b : Fin 128) :
    sl4 (val_main_v59 (F := Ideal) x0 x1) a b = layer (wv x1) (sl4 x0 a b) := by
  funext p q
  show x0 (ix4 a b p q) + val_main_v58 (F := Ideal) x0 x1 (ix4 a b p q) = layer (wv x1) (sl4 x0 a b) p q
  rw [val_main_v58_apply]
  refine (congrArg (x0 (ix4 a b p q) + ·) (dot_sl4 _ _ a b p q)).trans ?_
  rw [sl4_v57]
  rfl

/-- THE REFERENCE'S RESULT AS ONE FUNCTION of its two arguments: the whole-array layer. -/
theorem result_eq (x0 : S2048x128x8x8.Idx → EReal) (x1 : S14.Idx → EReal) :
    val_main_v59 (F := Ideal) x0 x1 = layer4 x0 x1 := by
  funext i
  obtain ⟨a, b, p, q, rfl⟩ : ∃ (a : Fin 2048) (b : Fin 128) (p q : Fin 8), i = ix4 a b p q := ⟨i 0, i 1, i 2, i 3, eq_ix4 i⟩
  rw [layer4_apply]
  exact congrFun (congrFun (sl4_v59 x0 x1 a b) p) q

end Cert.ReferenceIdeal.RefValue

end
-- ==== Proof.lean ====
/-
  A chained 8×8 matrix polynomial, batched over 2048·128 independent matrices: the kernel against its reference.

  For each 8×8 matrix x of the input and the weights w, both programs compute
      A = I − x·xᵀ,   Mat = w₀·A + w₁·A² + … + w₆·A⁷ + w₇·I,   out = x + Mat·x,
  with the powers as left-nested products (Aᵏ⁺¹ = Aᵏ·A) and the weighted sum taken from the left (Proof/Spec.lean states
  this once, as `Cert.MatPoly.layer`, and its whole-array forms `layer3`, `layer4`). The two programs are the SAME
  expression tree; they differ only in layout and in spelling:
    · the kernel flattens the two leading axes, cuts the flat array into 512 blocks of 512 matrices, and un-flattens the
      result; the reference works on the rank-4 array with two batch axes;
    · the kernel rounds the operands of each product to bf16 and accumulates into a zero tile, the reference calls a
      `dot_general`: on the extended reals a change of format is the identity and both products are the plain sum over the
      contracted position;
    · the identity matrix is an integer comparison of row and column numbers converted to a float, read as a signed
      32-bit word by the kernel and as an unsigned bit by the reference: 1 on the diagonal and 0 off it either way;
    · w₇·I is formed on the whole tile by the kernel, on one 8×8 matrix and then broadcast by the reference.
  No algebraic law joins the two sides beyond these readings, so the finiteness of the inputs is never used.

  The modules: Spec (the function), KernelBlock (the kernel body's stored tile, matrix by matrix), KernelArray (from the
  pipeline's blocks to the whole output array), Reshape (flattening commutes with the layer), KernelRun (the kernel
  program's run with its two host reshapes), RefStages (the reference's stages, matrix by matrix). The three frames are
  the generated ones (the reference's is its generated run with the result dropped); the idealization rewrote nothing,
  so the preservation claim is trivial.
-/
import proofs.«178857_j69380901700219_1_alg».proof.Defs
import proofs.«178857_j69380901700219_1_alg».proof.Proof.Gen.Kernel
import proofs.«178857_j69380901700219_1_alg».proof.Proof.Gen.Kernel.Skeleton
import proofs.«178857_j69380901700219_1_alg».proof.Proof.Gen.Kernel.Launch
import proofs.«178857_j69380901700219_1_alg».proof.Proof.Gen.Kernel.Points
import proofs.«178857_j69380901700219_1_alg».proof.Proof.Gen.Kernel.Frame
import proofs.«178857_j69380901700219_1_alg».proof.Proof.Gen.KernelIdeal
import proofs.«178857_j69380901700219_1_alg».proof.Proof.Gen.KernelIdeal.Skeleton
import proofs.«178857_j69380901700219_1_alg».proof.Proof.Gen.KernelIdeal.Launch
import proofs.«178857_j69380901700219_1_alg».proof.Proof.Gen.KernelIdeal.Points
import proofs.«178857_j69380901700219_1_alg».proof.Proof.Gen.KernelIdeal.Frame
import proofs.«178857_j69380901700219_1_alg».proof.Proof.Gen.ReferenceIdeal
import proofs.«178857_j69380901700219_1_alg».proof.Proof.Gen.ReferenceIdeal.Run
import proofs.«178857_j69380901700219_1_alg».proof.Proof.Gen.ReferenceIdeal.Read
import proofs.«178857_j69380901700219_1_alg».proof.Proof.Gen.Pre_finite_inputs
import proofs.«178857_j69380901700219_1_alg».proof.Proof.KernelRun
import proofs.«178857_j69380901700219_1_alg».proof.Proof.RefStages
import Idealize.ShloMosaic.Adequacy
import Idealize.ShloMosaic.Init

noncomputable section

namespace Cert.Proof

open Idealize.ShloMosaic Idealize.SL.Sem Cert.MatPoly

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the layer of the argument array and the weights: the kernel's program
    by its run read through the pipeline's blocks and the two reshapes, the reference by its stages read matrix by matrix. -/
theorem algebraic : Cert.algebraic_KernelIdeal_ReferenceIdeal := by
  intro m ρ m' ρ' _ hagree
  refine ⟨fun c => layer4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
